-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x2048 : Shape := ⟨2, ![400, 2048]⟩
abbrev S400x128 : Shape := ⟨2, ![400, 128]⟩
abbrev S2048x128 : Shape := ⟨2, ![2048, 128]⟩
abbrev S400x1808 : Shape := ⟨2, ![400, 1808]⟩
abbrev S1808x128 : Shape := ⟨2, ![1808, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S400x2048, .f32⟩
  | .local _ .vmem, ⟨2, _⟩ => ⟨S400x2048, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![25, 5], ![false, false]⟩

def k0_cond3 (i : grid0.Coords) : BitVec 1 :=
  let arg1 : BitVec 32 := BitVec.ofNat 32 (i 1).val
  let c4_i32 : BitVec 32 := 4#32
  let v8 : BitVec 1 := Scalar.cmpi .slt arg1 c4_i32
  let v9 : BitVec 32 := Scalar.extui v8
  let c0_i32_4 : BitVec 32 := 0#32
  let v10 : BitVec 1 := Scalar.cmpi .ne v9 c0_i32_4
  v10

def k0_off1 (i : grid0.Coords) : Fin 2 → Nat :=
  let arg1 : BitVec 32 := BitVec.ofNat 32 (i 1).val
  let c2048_i32 : BitVec 32 := 2048#32
  let v17 : BitVec 32 := Scalar.muli arg1 c2048_i32
  let v18 : Index := Scalar.indexCast v17
  let c0_10 : Index := 0#32
  ![v18.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond4 (i : grid0.Coords) : BitVec 1 :=
  let arg1 : BitVec 32 := BitVec.ofNat 32 (i 1).val
  let c4_i32_5 : BitVec 32 := 4#32
  let v11 : BitVec 1 := Scalar.cmpi .eq arg1 c4_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S400x2048_S400x2048_0_0 : ∀ a, (![0, 0] : Fin 2 → Nat) a + S400x2048.size a ≤ S400x2048.size a
  h_S400x2048 : 0 < S400x2048.numel
  h_S2048x128 : 0 < S2048x128.numel
  inb_S400x2048_S400x1808_0_0 : ∀ a, (![0, 0] : Fin 2 → Nat) a + S400x1808.size a ≤ S400x2048.size a
  h_S400x1808 : 0 < S400x1808.numel
  inb_S10000x128_S1808x128_8192_0 : ∀ a, (![8192, 0] : Fin 2 → Nat) a + S1808x128.size a ≤ S10000x128.size a
  h_S1808x128 : 0 < S1808x128.numel
  dot_S10000x128_S128x128_S10000x128_1_0_0_1_n_n_wf : DotDims.WF S10000x128 S128x128 S10000x128 [1] [0] [0] [1] [] []
  dot_S400x2048_S2048x128_S400x128_1_0_0_1_n_n_wf : DotDims.WF S400x2048 S2048x128 S400x128 [1] [0] [0] [1] [] []
  dot_S400x1808_S1808x128_S400x128_1_0_0_1_n_n_wf : DotDims.WF S400x1808 S1808x128 S400x128 [1] [0] [0] [1] [] []
  hrank0 : 0 < grid0.rank
  k0_off1_inb : ∀ i : grid0.Coords, ∀ (k0_h3 : k0_cond3 i = 1#1), ∀ a, (k0_off1 i) a + S2048x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S400x2048.size a < S10000x10000.size a
  hwx0_1 : ∀ i : grid0.Coords, EltTy.bits .f32 = 32 ∨ (Rect.unit (s := S10000x10000) (fun a => cc0_transform_1 i a * S400x2048.size a) (fun a => (Pipeline.Clip.of (cc0_transform_1 i a) (S400x2048.size a) (S10000x10000.size a)).extent (S400x2048.size a)) fun a => Pipeline.Clip.inb (Pipeline.Clip.ok_of (hstart0_1 i a))).WholeWords (EltTy.packing .f32)
  hwxs0_1 : ∀ i : grid0.Coords, EltTy.bits .f32 = 32 ∨ (Rect.unit (s := S400x2048) (fun _ => 0) (fun a => (Pipeline.Clip.of (cc0_transform_1 i a) (S400x2048.size a) (S10000x10000.size a)).extent (S400x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x2048_S2048x128_S400x128_1_0_0_1_n_n : DotDims S400x2048 S2048x128 S400x128 where
  lhsContracting := [1]
  rhsContracting := [0]
  lhsNonContracting := [0]
  rhsNonContracting := [1]
  lhsBatch := []
  rhsBatch := []
  wf := dot_S400x2048_S2048x128_S400x128_1_0_0_1_n_n_wf
def dot_S400x1808_S1808x128_S400x128_1_0_0_1_n_n : DotDims S400x1808 S1808x128 S400x128 where
  lhsContracting := [1]
  rhsContracting := [0]
  lhsNonContracting := [0]
  rhsNonContracting := [1]
  lhsBatch := []
  rhsBatch := []
  wf := dot_S400x1808_S1808x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S400x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibWholeBuf.lean ====
/-
  Whole-buffer accesses.

  A kernel body often touches a buffer only through the rectangle at offset zero of the buffer's own extents. One store
  through it, read back, is the stored value whatever the buffer held before; a load through it of a whole buffer whose
  contents read as `x` is `x`. Stated for any view or whole memref, any shape and element type, and however the zero
  offsets are spelt (`hz`), so that a body's run can close its output goals without unfolding a literal extent.
-/
import Idealize.ShloMosaic.Lib.Pipeline.Value
import Idealize.ShloMosaic.Lib.Pipeline.FrameBody
import Idealize.ShloMosaic.Lib.Pipeline.Frame

noncomputable section

namespace Idealize.ShloMosaic.WholeBuf

open Idealize.ShloMosaic

/-- One store through the whole-shape rectangle, read back, is its payload. -/
theorem read_writes_unit_zero {sig : RefSig} {κ : Kind} {sp : Space} {S : Shape} {e : EltTy} {Val : EltTy → Type}
    [∀ e, Nonempty (Val e)] (v : View sig κ sp S e) (f : v.ty.Contents Val) {off : Fin S.rank → Nat}
    (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero hz inb y⟩)).trans
    (View.canon_unit_zero hz inb w)

/-- A load through the whole-shape rectangle of a whole memref holding `x` reads `x`. -/
theorem readAt_unit_zero_unread {sig : RefSig} {κ : Kind} {sp : Space} {S : Shape} {e : EltTy} {Val : EltTy → Type}
    (M : Memref sig κ sp S e) (h : M.IsWhole) {off : Fin S.rank → Nat} (hz : off = fun _ => 0)
    (inb : ∀ a, off a + S.size a ≤ S.size a) (x : S.Idx → Val e) :
    M.view.readAt Val (Rect.unit off S.size inb).toLoadRect (h.unread x) = x := by
  rw [View.readAt_eq_ld, h.read_unread, View.ld_unit_zero hz]

/-- The zero offsets of a rank-2 access as a literal vector. -/
theorem zeros2 : (![0, 0] : Fin 2 → Nat) = fun _ => 0 := funext fun a => by fin_cases a <;> rfl

end Idealize.ShloMosaic.WholeBuf

end
-- ==== Proof.LibWholeStore.lean ====
/-
  Whole-buffer stores followed by more accesses.

  Two companions of the single whole store read back: a whole store on top of any earlier stores still reads back as
  its payload (the last store covers everything), and a load of any rectangle after ONE whole store reads that
  rectangle of the stored value. Stated for any view, shape and element type, and however the zero offsets are spelt,
  so that a body's run never unfolds a literal extent.
-/
import Idealize.ShloMosaic.Lib.Pipeline.Value
import Idealize.ShloMosaic.Lib.Pipeline.FrameBody
import Idealize.ShloMosaic.Lib.Pipeline.Frame

noncomputable section

namespace Idealize.ShloMosaic.WholeStore

open Idealize.ShloMosaic

/-- A store through the whole-shape rectangle, LAST, read back, is its payload whatever was stored before. -/
theorem read_writes_cons_unit_zero {sig : RefSig} {κ : Kind} {sp : Space} {S : Shape} {e : EltTy} {Val : EltTy → Type}
    [∀ e, Nonempty (Val e)] (v : View sig κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

/-- A load of the rectangle `r` after ONE store through the whole-shape rectangle reads `r` of the stored value. -/
theorem readCov_unit_zero_ld {sig : RefSig} {κ : Kind} {sp : Space} {S : Shape} {e : EltTy} {Val : EltTy → Type}
    [∀ e, Nonempty (Val e)] (v : View sig κ sp S e) {off : Fin S.rank → Nat}
    (hz : off = fun _ => 0) (inb : ∀ a, off a + S.size a ≤ S.size a) (w : S.Idx → Val e) (r : Rect S) :
    v.readCov [(⟨Rect.unit off S.size inb, w⟩ : View.Piece Val S e)] r.toLoadRect = View.ld w r :=
  (View.readCov_eq_canon_ld v _ r (fun y => ⟨_, List.mem_singleton_self _, View.mem_set_unit_zero hz inb y⟩)).trans
    (by rw [View.canon_unit_zero hz inb w])

/-- A load of any rectangle of a whole memref holding `x` reads that rectangle of `x`. -/
theorem readAt_unread {sig : RefSig} {κ : Kind} {sp : Space} {S : Shape} {e : EltTy} {Val : EltTy → Type}
    (M : Memref sig κ sp S e) (h : M.IsWhole) (r : Rect S) (x : S.Idx → Val e) :
    M.view.readAt Val r.toLoadRect (h.unread x) = View.ld x r := by
  rw [View.readAt_eq_ld, h.read_unread]

end Idealize.ShloMosaic.WholeStore

end
-- ==== Proof.BRunDefs.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.LibWholeBuf
import proofs.«104776_g704374636671_cont_9to1_m_152_16_alg».proof.Proof.LibWholeStore
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

/-! Names shared by the four runs of the kernel body: the condition of its first conditional, and the three
    rectangles through which it reads the scratch and the last adjacency tile. -/

/-- The condition of the first conditional: both grid coordinates are zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem hz : (![0, 0] : Fin 2 → Nat) = fun _ => 0 := zeros2

/-- The rows of the scratch that K-block `i 1` multiplies: 2048 rows from row 2048 · (i 1). -/
abbrev kRows (i : grid0.Coords) (h3 : k0_cond3 i = 1#1) : Rect S10000x128 := (Rect.unit (s := S10000x128) (k0_off1 i) S2048x128.size (k0_off1_inb i h3))
/-- The rows of the scratch the last K-block multiplies: the 1808 rows from row 8192. -/
abbrev tailRows : Rect S10000x128 := Rect.unit (s := S10000x128) ![8192, 0] S1808x128.size inb_S10000x128_S1808x128_8192_0
/-- The valid columns of the last adjacency tile: the first 1808 of its 2048. -/
abbrev tailCols : Rect S400x2048 := Rect.unit (s := S400x2048) ![0, 0] S400x1808.size inb_S400x2048_S400x1808_0_0

end Cert.Kernel.Body

end
-- ==== Proof.BSched.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BRunDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The schedule of the 25 × 5 grid, decided once over its 125 points (point `t` is row block `t / 5`, K-block
    `t % 5`): which conditionals of the body are taken where, that the output window is never idle, and how the
    adjacency window is cut — not at all for the first four K-blocks, to 1808 columns for the last. -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val % 5 = 0 :=
  (by decide +kernel : ∀ t : Fin grid0.N, k0_cond2 (grid0.coords t) = 1#1 ↔ t.val % 5 = 0)
theorem hcond3 : ∀ t : Fin cfg0.N, k0_cond3 (grid0.coords t) = 1#1 ↔ t.val % 5 ≠ 4 :=
  (by decide +kernel : ∀ t : Fin grid0.N, k0_cond3 (grid0.coords t) = 1#1 ↔ t.val % 5 ≠ 4)
theorem hcond4 : ∀ t : Fin cfg0.N, k0_cond4 (grid0.coords t) = 1#1 ↔ t.val % 5 = 4 :=
  (by decide +kernel : ∀ t : Fin grid0.N, k0_cond4 (grid0.coords t) = 1#1 ↔ t.val % 5 = 4)

/-- The output window is live at every point (every point adds a K-block). -/
theorem live3 : ∀ t : Fin cfg0.N, cfg0.idle 3 (grid0.coords t) = false :=
  (by decide +kernel : ∀ t : Fin grid0.N, cfg0.idle 3 (grid0.coords t) = false)

/-- The output window is not fetched. -/
theorem fetch3 : ∀ t : Fin cfg0.N, (cfg0.win 3).fetch t = false :=
  (by decide +kernel : ∀ t : Fin grid0.N, win0_3.fetch t = false)

/-- The first four K-blocks of the adjacency lie inside the array: their fetch is not cut. -/
theorem clip1_none : ∀ t : Fin cfg0.N, t.val % 5 ≠ 4 → ∀ a, (cfg0.win 1).clip (grid0.coords t) a = none :=
  (by decide +kernel : ∀ t : Fin grid0.N, t.val % 5 ≠ 4 → ∀ a, win0_1.clip (grid0.coords t) a = none)

/-- The last K-block is cut to the 400 × 1808 part inside the array. -/
theorem xsize1_last : ∀ t : Fin cfg0.N, t.val % 5 = 4 → (cfg0.win 1).xsize (grid0.coords t) 0 = 400 ∧ (cfg0.win 1).xsize (grid0.coords t) 1 = 1808 :=
  (by decide +kernel : ∀ t : Fin grid0.N, t.val % 5 = 4 → win0_1.xsize (grid0.coords t) 0 = 400 ∧ win0_1.xsize (grid0.coords t) 1 = 1808)

/-- The output window's blocks tile its array: no cut. -/
theorem clip3_none : ∀ (i : grid0.Coords) a, (cfg0.win 3).clip i a = none := fun _ _ => rfl

end Cert.Kernel.Body

end
-- ==== Proof.BData.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BSched
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What every staging buffer and the scratch hold after the body at each grid point, named: the scratch holds the
    product features · W from the first point on; the adjacency buffer holds the point's tile; the output buffer holds
    the running sum of its row block's K-blocks, restarted at K-block 0 and clipped below at zero after K-block 4. -/

/-- The first grid point. -/
abbrev t0 : Fin cfg0.N := ⟨0, by decide⟩

/-- The scratch operand, a whole buffer. -/
abbrev scM : Memref sig .tc .vmem S10000x128 .f32 := Memref.whole cc0_scratch0

/-- The product features · W as the body computes it at the first point, from the two whole input blocks. -/
def sup (c : Dev nD) : Vec F S10000x128 .f32 := k0_pay1 (iblk m c 0 t0) (iblk m c 2 t0)

/-- The adjacency tile of point `t` as a full 400 × 2048 buffer: the tile's part inside the array, and zeros in the
    columns past the array's end (only the last K-block has any, and the body never reads them). -/
def adjBuf (c : Dev nD) (t : Fin cfg0.N) : Vec F S400x2048 .f32 :=
  (cfg0.win 1).fill (cfg0.grid.coords t) (fun _ => Scalar.ofBits .f32 0#32) (iblk m c 1 t)

/-- One point's update of the output block from the adjacency buffer `x3` and the block `prev` the point before left:
    the last K-block adds the valid columns times the scratch's last rows and clips at zero; any other K-block adds
    the tile times its 2048 rows of the scratch, to zero at K-block 0 and to `prev` otherwise. -/
def accStep (c : Dev nD) (t : Fin cfg0.N) (x3 : Vec F S400x2048 .f32) (prev : Vec F S400x128 .f32) : Vec F S400x128 .f32 :=
  if h4 : t.val % 5 = 4 then k0_pay4 (View.ld x3 tailCols) (View.ld (sup m c) tailRows) prev
  else k0_pay3 (if t.val % 5 = 0 then k0_pay2 (F := F) else prev) x3 (View.ld (sup m c) (kRows (grid0.coords t) ((hcond3 t).mpr h4)))

/-- The output block after each point, by recursion on the point. -/
def accAt (c : Dev nD) : (n : ℕ) → n < cfg0.N → Vec F S400x128 .f32
  | 0, hn => accStep m c ⟨0, hn⟩ (adjBuf m c ⟨0, hn⟩) (k0_pay2 (F := F))
  | n + 1, hn => accStep m c ⟨n + 1, hn⟩ (adjBuf m c ⟨n + 1, hn⟩) (accAt c n (Nat.lt_of_succ_lt hn))

theorem accAt_pos (c : Dev nD) (t : Fin cfg0.N) (ht : t.val ≠ 0) :
    accAt m c t.val t.isLt = accStep m c t (adjBuf m c t) (accAt m c (t.val - 1) (Nat.lt_of_le_of_lt (Nat.sub_le _ _) t.isLt)) := by
  obtain ⟨n, hn⟩ := t
  cases n with
  | zero => exact absurd rfl ht
  | succ n => rfl

theorem accAt_zero (c : Dev nD) (t : Fin cfg0.N) (ht : t.val = 0) :
    accAt m c t.val t.isLt = accStep m c t (adjBuf m c t) (k0_pay2 (F := F)) := by
  obtain ⟨n, hn⟩ := t
  cases n with
  | zero => rfl
  | succ n => exact absurd ht (Nat.succ_ne_zero n)

/-- The update reads the adjacency buffer only where the fetch filled it: whatever sat past the array's end. -/
theorem accStep_fill (c : Dev nD) (t : Fin cfg0.N) (d : S400x2048.Idx → Elt F .f32) (prev : Vec F S400x128 .f32) :
    accStep m c t ((cfg0.win 1).fill (cfg0.grid.coords t) d (iblk m c 1 t)) prev = accStep m c t (adjBuf m c t) prev := by
  unfold accStep adjBuf
  by_cases h4 : t.val % 5 = 4
  · rw [dif_pos h4, dif_pos h4]
    have e : View.ld ((cfg0.win 1).fill (cfg0.grid.coords t) d (iblk m c 1 t)) tailCols
        = View.ld ((cfg0.win 1).fill (cfg0.grid.coords t) (fun _ => Scalar.ofBits .f32 0#32) (iblk m c 1 t)) tailCols := by
      funext x
      have hm : (cfg0.win 1).moved (cfg0.grid.coords t) (tailCols.idx x) = true := by
        rw [Window.moved_iff]
        intro a
        obtain ⟨h0, h1⟩ := xsize1_last t h4
        match a with
        | ⟨0, _⟩ =>
          show ((tailCols.idx x) 0).val < (cfg0.win 1).xsize (cfg0.grid.coords t) 0
          rw [h0]; show 0 + 1 * (x 0).val < 400
          have : (x 0).val < 400 := (x 0).isLt
          omega
        | ⟨1, _⟩ =>
          show ((tailCols.idx x) 1).val < (cfg0.win 1).xsize (cfg0.grid.coords t) 1
          rw [h1]; show 0 + 1 * (x 1).val < 1808
          have : (x 1).val < 1808 := (x 1).isLt
          omega
      show (cfg0.win 1).fill (cfg0.grid.coords t) d (iblk m c 1 t) (tailCols.idx x) = (cfg0.win 1).fill (cfg0.grid.coords t) _ (iblk m c 1 t) (tailCols.idx x)
      unfold Window.fill; rw [dif_pos hm, dif_pos hm]
    exact congrArg (fun z => k0_pay4 z (View.ld (sup m c) tailRows) prev) e
  · rw [dif_neg h4, dif_neg h4, Pipeline.fill_of_clip_none (cfg := cfg0) 1 (cfg0.grid.coords t) (clip1_none t h4) d (fun _ => Scalar.ofBits .f32 0#32) (iblk m c 1 t)]

/-- The scratch's owner before position `n`: before the first point at anything (the class's invariant); afterwards at
    the product. The generator register is held at some state throughout. -/
def PhiS (c : Dev nD) : (n : ℕ) → n ≤ cfg0.N → sProp 𝕄
  | 0, _ => Pipeline.ΦA spec0 c
  | _ + 1, _ => iprop(owns (c : Thread nD τ) scM fullShare (sup m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (sup m c) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjBuf m c t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = adjBuf m c t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- The two whole inputs' buffers hold their arrays at every point. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d

/-- The adjacency buffer is fetched at every point: the tile where the fetch filled it, `d` past the array's end. -/
theorem before1 (c : Dev nD) (t : Fin cfg0.N) (d) :
    (dats m 0 c).before 1 t d = (cfg0.win 1).fill (cfg0.grid.coords t) d (iblk m c 1 t) := by
  rw [(dats m 0 c).before_fetched 1 t (fetch0_1 t)]
  unfold Dat.fetched Dat.blockOf iblk; rw [A_eq]

/-- The output buffer at K-block 0: fresh (the first point, or the point before wrote it back). -/
theorem before3_reset (c : Dev nD) (t : Fin cfg0.N) (h : t.val % 5 = 0) (d) : (dats m 0 c).before 3 t d = d := by
  refine (dats m 0 c).before_out_reset 3 rfl t ?_ d
  by_cases hz : t.val = 0
  · exact .inl hz
  · refine .inr ⟨hz, (flush0_3 ⟨t.val - 1, Nat.lt_of_le_of_lt (Nat.sub_le _ _) t.isLt⟩).mpr ?_⟩
    show (t.val - 1) % 5 = 4
    omega

/-- The output buffer at a later K-block: what the point before left. -/
theorem before3_acc (c : Dev nD) (t : Fin cfg0.N) (h : t.val % 5 ≠ 0) (d) :
    (dats m 0 c).before 3 t d = accAt m c (t.val - 1) (Nat.lt_of_le_of_lt (Nat.sub_le _ _) t.isLt) := by
  have ht : t.val ≠ 0 := fun h0 => h (by rw [h0])
  have hfl : (cfg0.win 3).flush ⟨t.val - 1, Nat.lt_of_le_of_lt (Nat.sub_le _ _) t.isLt⟩ = false := by
    rw [Bool.eq_false_iff]; intro hf
    have := (flush0_3 ⟨t.val - 1, Nat.lt_of_le_of_lt (Nat.sub_le _ _) t.isLt⟩).mp hf
    have e : (t.val - 1) % 5 = 4 := this
    omega
  rw [(dats m 0 c).before_of_pos 3 t ht (fetch3 t), hfl, if_neg Bool.false_ne_true]
  unfold Dat.left; rw [live3]; dsimp only
  unfold Dat.kept
  rw [Pipeline.fill_of_clip_none (cfg := cfg0) 3 _ (clip3_none _) d ((dats m 0 c).after 3 _), Window.fill_cut, after3]

end Cert.Kernel.Body

end
-- ==== Proof.BRunMid.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BRunDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at a middle K-block, on any whole memrefs holding `x2` (features), `x3` (the adjacency tile), `x4` (W),
    `x5` (the output block) and `xs` (the scratch): the output block gains the tile times its 2048 rows of the scratch; all
    else is kept. -/
theorem run_mid (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : ¬k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 x5 x3 (View.ld xs (kRows i h3)))
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.Kernel.Body

end
-- ==== Proof.BRunLast.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BRunDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at the last K-block: the output block gains the tile's 1808 valid columns times the scratch's last 1808
    rows and is clipped below at zero; all else is kept. -/
theorem run_last (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : ¬k0_cond2 i = 1#1) (h3 : ¬k0_cond3 i = 1#1) (h4 : k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 (View.ld x3 tailCols) (View.ld xs tailRows) x5)
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.Kernel.Body

end
-- ==== Proof.BRunReset.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BRunDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at K-block 0 of a later row block: the output block is zeroed and gains the tile times the scratch's
    first 2048 rows; all else is kept. -/
theorem run_reset (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 (k0_pay2 (F := F)) x3 (View.ld xs (kRows i h3)))
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.Kernel.Body

end
-- ==== Proof.BRunFirst.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BRunDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at the first point: the scratch takes the product of the two whole inputs; the output block is zeroed and
    gains the tile times the first 2048 rows of that product. -/
theorem run_first (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : cond1 i) (h2 : k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 (k0_pay2 (F := F)) x3 (View.ld (k0_pay1 x2 x4) (kRows i h3)))
            ∗ owns (c : Thread nD τ) arg6 fullShare (k0_pay1 x2 x4)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr
    swap; · iexact HS
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]

end Cert.Kernel.Body

end
-- ==== Proof.BBody.lean ====
import proofs.«104776_g704374636671_cont_9to1_m_152_16_alg».proof.Proof.Gen.Kernel.Frame
import proofs.«104776_g704374636671_cont_9to1_m_152_16_alg».proof.Proof.Gen.Kernel.Skeleton
import proofs.«104776_g704374636671_cont_9to1_m_152_16_alg».proof.Proof.BData
import proofs.«104776_g704374636671_cont_9to1_m_152_16_alg».proof.Proof.BRunMid
import proofs.«104776_g704374636671_cont_9to1_m_152_16_alg».proof.Proof.BRunLast
import proofs.«104776_g704374636671_cont_9to1_m_152_16_alg».proof.Proof.BRunReset
import proofs.«104776_g704374636671_cont_9to1_m_152_16_alg».proof.Proof.BRunFirst
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body obligation: at every point the body, handed the invariant and the four staging buffers at what they
    hold, leaves them at the proof data's contents for that point. The point is in one of four cases (the first point;
    K-block 0 of a later row block; a middle K-block; the last K-block); in each the matching run applies, and its
    payload is the proof data's output block by one of the four equations below. -/

/-! ## The output block, case by case -/

theorem sup_first (c : Dev nD) (t : Fin cfg0.N) (hz0 : t.val = 0) :
    sup m c = k0_pay1 (iblk m c 0 t) (iblk m c 2 t) := by
  obtain ⟨n, hn⟩ := t
  cases n with
  | zero => rfl
  | succ n => exact absurd hz0 (Nat.succ_ne_zero n)

theorem acc_first (c : Dev nD) (t : Fin cfg0.N) (hz0 : t.val = 0) (h3 : k0_cond3 (grid0.coords t) = 1#1) (d : S400x2048.Idx → Elt F .f32) :
    accAt m c t.val t.isLt = k0_pay3 (k0_pay2 (F := F)) ((cfg0.win 1).fill (cfg0.grid.coords t) d (iblk m c 1 t))
      (View.ld (k0_pay1 (iblk m c 0 t) (iblk m c 2 t)) (kRows (grid0.coords t) h3)) := by
  have h4 : ¬t.val % 5 = 4 := by omega
  have h0 : t.val % 5 = 0 := by omega
  rw [accAt_zero m c t hz0, ← accStep_fill m c t d, ← sup_first m c t hz0]
  unfold accStep; rw [dif_neg h4, if_pos h0]

theorem acc_reset (c : Dev nD) (t : Fin cfg0.N) (hz0 : t.val ≠ 0) (h0 : t.val % 5 = 0) (h3 : k0_cond3 (grid0.coords t) = 1#1) (d : S400x2048.Idx → Elt F .f32) :
    accAt m c t.val t.isLt = k0_pay3 (k0_pay2 (F := F)) ((cfg0.win 1).fill (cfg0.grid.coords t) d (iblk m c 1 t))
      (View.ld (sup m c) (kRows (grid0.coords t) h3)) := by
  have h4 : ¬t.val % 5 = 4 := by omega
  rw [accAt_pos m c t hz0, ← accStep_fill m c t d]
  unfold accStep; rw [dif_neg h4, if_pos h0]

theorem acc_mid (c : Dev nD) (t : Fin cfg0.N) (h0 : ¬t.val % 5 = 0) (h4 : ¬t.val % 5 = 4) (h3 : k0_cond3 (grid0.coords t) = 1#1) (d : S400x2048.Idx → Elt F .f32) :
    accAt m c t.val t.isLt = k0_pay3 (accAt m c (t.val - 1) (Nat.lt_of_le_of_lt (Nat.sub_le _ _) t.isLt)) ((cfg0.win 1).fill (cfg0.grid.coords t) d (iblk m c 1 t))
      (View.ld (sup m c) (kRows (grid0.coords t) h3)) := by
  have hz0 : t.val ≠ 0 := fun h => h0 (by rw [h])
  rw [accAt_pos m c t hz0, ← accStep_fill m c t d]
  unfold accStep; rw [dif_neg h4, if_neg h0]

theorem acc_last (c : Dev nD) (t : Fin cfg0.N) (h4 : t.val % 5 = 4) (d : S400x2048.Idx → Elt F .f32) :
    accAt m c t.val t.isLt = k0_pay4 (View.ld ((cfg0.win 1).fill (cfg0.grid.coords t) d (iblk m c 1 t)) tailCols) (View.ld (sup m c) tailRows)
      (accAt m c (t.val - 1) (Nat.lt_of_le_of_lt (Nat.sub_le _ _) t.isLt)) := by
  have hz0 : t.val ≠ 0 := fun h => by rw [h] at h4; exact absurd h4 (by decide)
  rw [accAt_pos m c t hz0, ← accStep_fill m c t d]
  unfold accStep; rw [dif_pos h4]; rfl

/-! ## What the obligation hands back, window by window -/

theorem leaves0 (c : Dev nD) (t : Fin cfg0.N) :
    (dats m 0 c).leaves 0 t = owns (c : Thread nD τ) (st0_0 t) fullShare (iblk m c 0 t) := by
  rw [← after0 m c t]
theorem leaves2 (c : Dev nD) (t : Fin cfg0.N) :
    (dats m 0 c).leaves 2 t = owns (c : Thread nD τ) (st0_2 t) fullShare (iblk m c 2 t) := by
  rw [← after2 m c t]
/-- The adjacency window is stated on the part its fetch fills only. -/
theorem leaves1 (c : Dev nD) (t : Fin cfg0.N) :
    (dats m 0 c).leaves 1 t = iprop(∃ d, owns (c : Thread nD τ) (st0_1 t) fullShare ((cfg0.win 1).fill (cfg0.grid.coords t) d (iblk m c 1 t))) := by
  have e : (cfg0.win 1).cut (cfg0.grid.coords t) ((dats m 0 c).after 1 t) = iblk m c 1 t := by
    rw [after1]; unfold adjBuf; exact (cfg0.win 1).cut_fill _ _ _
  rw [← e]
theorem leaves3 (c : Dev nD) (t : Fin cfg0.N) :
    (dats m 0 c).leaves 3 t = owns (c : Thread nD τ) (st0_3 t) fullShare (accAt m c t.val t.isLt) := by
  rw [← after3 m c t]; unfold Dat.leaves; rw [live3 t]

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem Phi_succ (c : Dev nD) (t : Fin cfg0.N) :
    (dats m 0 c).Φ t.succ = iprop(owns (c : Thread nD τ) scM fullShare (sup m c) ∗ (∃ r, prngReg c r)) := rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, Phi_succ, Phi_castSucc,
    leaves0, leaves1, leaves2, leaves3]
  by_cases hz0 : t.val = 0
  · -- the first point
    have h0 : t.val % 5 = 0 := by omega
    have h4 : ¬t.val % 5 = 4 := by omega
    have hc1 : cond1 (grid0.coords t) := (hcond1 t).mpr hz0
    have hc2 : k0_cond2 (grid0.coords t) = 1#1 := (hcond2 t).mpr h0
    have hc3 : k0_cond3 (grid0.coords t) = 1#1 := (hcond3 t).mpr h4
    have hc4 : ¬k0_cond4 (grid0.coords t) = 1#1 := fun h => h4 ((hcond4 t).mp h)
    simp only [before3_reset m c t h0]
    rw [PhiS_zero m c _ _ hz0, PhiA_eq]
    iintro ⟨⟨⟨%ds, HS⟩, Hg⟩, Ho, ⟨%d0, H0⟩, ⟨%d1, H1⟩, ⟨%d2, H2⟩, ⟨%d3, H3⟩⟩
    rw [acc_first m c t hz0 hc3 d1, sup_first m c t hz0]
    iapply (run_first c (grid0.coords t) _ _ _ _ _ _ _ _ _ _ hc1 hc2 hc3 hc4 (iblk m c 0 t) _ (iblk m c 2 t) d3 ds Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexists d1; iexact H1
    isplitl [H2]; · iexact H2
    iexact H3
  · rw [PhiS_pos m c _ _ hz0]
    by_cases h4 : t.val % 5 = 4
    · -- the last K-block
      have h0 : ¬t.val % 5 = 0 := by omega
      have hc1 : ¬cond1 (grid0.coords t) := fun h => hz0 ((hcond1 t).mp h)
      have hc2 : ¬k0_cond2 (grid0.coords t) = 1#1 := fun h => h0 ((hcond2 t).mp h)
      have hc3 : ¬k0_cond3 (grid0.coords t) = 1#1 := fun h => ((hcond3 t).mp h) h4
      have hc4 : k0_cond4 (grid0.coords t) = 1#1 := (hcond4 t).mpr h4
      simp only [before3_acc m c t h0]
      iintro ⟨⟨HS, Hg⟩, Ho, ⟨%d0, H0⟩, ⟨%d1, H1⟩, ⟨%d2, H2⟩, ⟨%d3, H3⟩⟩
      rw [acc_last m c t h4 d1]
      iapply (run_last c (grid0.coords t) _ _ _ _ _ _ _ _ _ _ hc1 hc2 hc3 hc4 (iblk m c 0 t) _ (iblk m c 2 t) _ (sup m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexists d1; iexact H1
      isplitl [H2]; · iexact H2
      iexact H3
    · have hc1 : ¬cond1 (grid0.coords t) := fun h => hz0 ((hcond1 t).mp h)
      have hc3 : k0_cond3 (grid0.coords t) = 1#1 := (hcond3 t).mpr h4
      have hc4 : ¬k0_cond4 (grid0.coords t) = 1#1 := fun h => h4 ((hcond4 t).mp h)
      by_cases h0 : t.val % 5 = 0
      · -- K-block 0 of a later row block
        have hc2 : k0_cond2 (grid0.coords t) = 1#1 := (hcond2 t).mpr h0
        simp only [before3_reset m c t h0]
        iintro ⟨⟨HS, Hg⟩, Ho, ⟨%d0, H0⟩, ⟨%d1, H1⟩, ⟨%d2, H2⟩, ⟨%d3, H3⟩⟩
        rw [acc_reset m c t hz0 h0 hc3 d1]
        iapply (run_reset c (grid0.coords t) _ _ _ _ _ _ _ _ _ _ hc1 hc2 hc3 hc4 (iblk m c 0 t) _ (iblk m c 2 t) d3 (sup m c) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexists d1; iexact H1
        isplitl [H2]; · iexact H2
        iexact H3
      · -- a middle K-block
        have hc2 : ¬k0_cond2 (grid0.coords t) = 1#1 := fun h => h0 ((hcond2 t).mp h)
        simp only [before3_acc m c t h0]
        iintro ⟨⟨HS, Hg⟩, Ho, ⟨%d0, H0⟩, ⟨%d1, H1⟩, ⟨%d2, H2⟩, ⟨%d3, H3⟩⟩
        rw [acc_mid m c t h0 h4 hc3 d1]
        iapply (run_mid c (grid0.coords t) _ _ _ _ _ _ _ _ _ _ hc1 hc2 hc3 hc4 (iblk m c 0 t) _ (iblk m c 2 t) _ (sup m c) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexists d1; iexact H1
        isplitl [H2]; · iexact H2
        iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 125 := N_0; omega), PhiA_eq]
  iintro ⟨HS, Hg⟩
  isplitl [HS]
  · iexists _; iexact HS
  iexact Hg

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KRunDefs.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.LibWholeBuf
import proofs.«104776_g704374636671_cont_9to1_m_152_16_alg».proof.Proof.LibWholeStore
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

/-! Names shared by the four runs of the kernel body: the condition of its first conditional, and the three
    rectangles through which it reads the scratch and the last adjacency tile. -/

/-- The condition of the first conditional: both grid coordinates are zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem hz : (![0, 0] : Fin 2 → Nat) = fun _ => 0 := zeros2

/-- The rows of the scratch that K-block `i 1` multiplies: 2048 rows from row 2048 · (i 1). -/
abbrev kRows (i : grid0.Coords) (h3 : k0_cond3 i = 1#1) : Rect S10000x128 := (Rect.unit (s := S10000x128) (k0_off1 i) S2048x128.size (k0_off1_inb i h3))
/-- The rows of the scratch the last K-block multiplies: the 1808 rows from row 8192. -/
abbrev tailRows : Rect S10000x128 := Rect.unit (s := S10000x128) ![8192, 0] S1808x128.size inb_S10000x128_S1808x128_8192_0
/-- The valid columns of the last adjacency tile: the first 1808 of its 2048. -/
abbrev tailCols : Rect S400x2048 := Rect.unit (s := S400x2048) ![0, 0] S400x1808.size inb_S400x2048_S400x1808_0_0

end Cert.KernelIdeal.Body

end
-- ==== Proof.KSched.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The schedule of the 25 × 5 grid, decided once over its 125 points (point `t` is row block `t / 5`, K-block
    `t % 5`): which conditionals of the body are taken where, that the output window is never idle, and how the
    adjacency window is cut — not at all for the first four K-blocks, to 1808 columns for the last. -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val % 5 = 0 :=
  (by decide +kernel : ∀ t : Fin grid0.N, k0_cond2 (grid0.coords t) = 1#1 ↔ t.val % 5 = 0)
theorem hcond3 : ∀ t : Fin cfg0.N, k0_cond3 (grid0.coords t) = 1#1 ↔ t.val % 5 ≠ 4 :=
  (by decide +kernel : ∀ t : Fin grid0.N, k0_cond3 (grid0.coords t) = 1#1 ↔ t.val % 5 ≠ 4)
theorem hcond4 : ∀ t : Fin cfg0.N, k0_cond4 (grid0.coords t) = 1#1 ↔ t.val % 5 = 4 :=
  (by decide +kernel : ∀ t : Fin grid0.N, k0_cond4 (grid0.coords t) = 1#1 ↔ t.val % 5 = 4)

/-- The output window is live at every point (every point adds a K-block). -/
theorem live3 : ∀ t : Fin cfg0.N, cfg0.idle 3 (grid0.coords t) = false :=
  (by decide +kernel : ∀ t : Fin grid0.N, cfg0.idle 3 (grid0.coords t) = false)

/-- The output window is not fetched. -/
theorem fetch3 : ∀ t : Fin cfg0.N, (cfg0.win 3).fetch t = false :=
  (by decide +kernel : ∀ t : Fin grid0.N, win0_3.fetch t = false)

/-- The first four K-blocks of the adjacency lie inside the array: their fetch is not cut. -/
theorem clip1_none : ∀ t : Fin cfg0.N, t.val % 5 ≠ 4 → ∀ a, (cfg0.win 1).clip (grid0.coords t) a = none :=
  (by decide +kernel : ∀ t : Fin grid0.N, t.val % 5 ≠ 4 → ∀ a, win0_1.clip (grid0.coords t) a = none)

/-- The last K-block is cut to the 400 × 1808 part inside the array. -/
theorem xsize1_last : ∀ t : Fin cfg0.N, t.val % 5 = 4 → (cfg0.win 1).xsize (grid0.coords t) 0 = 400 ∧ (cfg0.win 1).xsize (grid0.coords t) 1 = 1808 :=
  (by decide +kernel : ∀ t : Fin grid0.N, t.val % 5 = 4 → win0_1.xsize (grid0.coords t) 0 = 400 ∧ win0_1.xsize (grid0.coords t) 1 = 1808)

/-- The output window's blocks tile its array: no cut. -/
theorem clip3_none : ∀ (i : grid0.Coords) a, (cfg0.win 3).clip i a = none := fun _ _ => rfl

end Cert.KernelIdeal.Body

end
-- ==== Proof.KData.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KSched
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What every staging buffer and the scratch hold after the body at each grid point, named: the scratch holds the
    product features · W from the first point on; the adjacency buffer holds the point's tile; the output buffer holds
    the running sum of its row block's K-blocks, restarted at K-block 0 and clipped below at zero after K-block 4. -/

/-- The first grid point. -/
abbrev t0 : Fin cfg0.N := ⟨0, by decide⟩

/-- The scratch operand, a whole buffer. -/
abbrev scM : Memref sig .tc .vmem S10000x128 .f32 := Memref.whole cc0_scratch0

/-- The product features · W as the body computes it at the first point, from the two whole input blocks. -/
def sup (c : Dev nD) : Vec F S10000x128 .f32 := k0_pay1 (iblk m c 0 t0) (iblk m c 2 t0)

/-- The adjacency tile of point `t` as a full 400 × 2048 buffer: the tile's part inside the array, and zeros in the
    columns past the array's end (only the last K-block has any, and the body never reads them). -/
def adjBuf (c : Dev nD) (t : Fin cfg0.N) : Vec F S400x2048 .f32 :=
  (cfg0.win 1).fill (cfg0.grid.coords t) (fun _ => Scalar.ofBits .f32 0#32) (iblk m c 1 t)

/-- One point's update of the output block from the adjacency buffer `x3` and the block `prev` the point before left:
    the last K-block adds the valid columns times the scratch's last rows and clips at zero; any other K-block adds
    the tile times its 2048 rows of the scratch, to zero at K-block 0 and to `prev` otherwise. -/
def accStep (c : Dev nD) (t : Fin cfg0.N) (x3 : Vec F S400x2048 .f32) (prev : Vec F S400x128 .f32) : Vec F S400x128 .f32 :=
  if h4 : t.val % 5 = 4 then k0_pay4 (View.ld x3 tailCols) (View.ld (sup m c) tailRows) prev
  else k0_pay3 (if t.val % 5 = 0 then k0_pay2 (F := F) else prev) x3 (View.ld (sup m c) (kRows (grid0.coords t) ((hcond3 t).mpr h4)))

/-- The output block after each point, by recursion on the point. -/
def accAt (c : Dev nD) : (n : ℕ) → n < cfg0.N → Vec F S400x128 .f32
  | 0, hn => accStep m c ⟨0, hn⟩ (adjBuf m c ⟨0, hn⟩) (k0_pay2 (F := F))
  | n + 1, hn => accStep m c ⟨n + 1, hn⟩ (adjBuf m c ⟨n + 1, hn⟩) (accAt c n (Nat.lt_of_succ_lt hn))

theorem accAt_pos (c : Dev nD) (t : Fin cfg0.N) (ht : t.val ≠ 0) :
    accAt m c t.val t.isLt = accStep m c t (adjBuf m c t) (accAt m c (t.val - 1) (Nat.lt_of_le_of_lt (Nat.sub_le _ _) t.isLt)) := by
  obtain ⟨n, hn⟩ := t
  cases n with
  | zero => exact absurd rfl ht
  | succ n => rfl

theorem accAt_zero (c : Dev nD) (t : Fin cfg0.N) (ht : t.val = 0) :
    accAt m c t.val t.isLt = accStep m c t (adjBuf m c t) (k0_pay2 (F := F)) := by
  obtain ⟨n, hn⟩ := t
  cases n with
  | zero => rfl
  | succ n => exact absurd ht (Nat.succ_ne_zero n)

/-- The update reads the adjacency buffer only where the fetch filled it: whatever sat past the array's end. -/
theorem accStep_fill (c : Dev nD) (t : Fin cfg0.N) (d : S400x2048.Idx → Elt F .f32) (prev : Vec F S400x128 .f32) :
    accStep m c t ((cfg0.win 1).fill (cfg0.grid.coords t) d (iblk m c 1 t)) prev = accStep m c t (adjBuf m c t) prev := by
  unfold accStep adjBuf
  by_cases h4 : t.val % 5 = 4
  · rw [dif_pos h4, dif_pos h4]
    have e : View.ld ((cfg0.win 1).fill (cfg0.grid.coords t) d (iblk m c 1 t)) tailCols
        = View.ld ((cfg0.win 1).fill (cfg0.grid.coords t) (fun _ => Scalar.ofBits .f32 0#32) (iblk m c 1 t)) tailCols := by
      funext x
      have hm : (cfg0.win 1).moved (cfg0.grid.coords t) (tailCols.idx x) = true := by
        rw [Window.moved_iff]
        intro a
        obtain ⟨h0, h1⟩ := xsize1_last t h4
        match a with
        | ⟨0, _⟩ =>
          show ((tailCols.idx x) 0).val < (cfg0.win 1).xsize (cfg0.grid.coords t) 0
          rw [h0]; show 0 + 1 * (x 0).val < 400
          have : (x 0).val < 400 := (x 0).isLt
          omega
        | ⟨1, _⟩ =>
          show ((tailCols.idx x) 1).val < (cfg0.win 1).xsize (cfg0.grid.coords t) 1
          rw [h1]; show 0 + 1 * (x 1).val < 1808
          have : (x 1).val < 1808 := (x 1).isLt
          omega
      show (cfg0.win 1).fill (cfg0.grid.coords t) d (iblk m c 1 t) (tailCols.idx x) = (cfg0.win 1).fill (cfg0.grid.coords t) _ (iblk m c 1 t) (tailCols.idx x)
      unfold Window.fill; rw [dif_pos hm, dif_pos hm]
    exact congrArg (fun z => k0_pay4 z (View.ld (sup m c) tailRows) prev) e
  · rw [dif_neg h4, dif_neg h4, Pipeline.fill_of_clip_none (cfg := cfg0) 1 (cfg0.grid.coords t) (clip1_none t h4) d (fun _ => Scalar.ofBits .f32 0#32) (iblk m c 1 t)]

/-- The scratch's owner before position `n`: before the first point at anything (the class's invariant); afterwards at
    the product. The generator register is held at some state throughout. -/
def PhiS (c : Dev nD) : (n : ℕ) → n ≤ cfg0.N → sProp 𝕄
  | 0, _ => Pipeline.ΦA spec0 c
  | _ + 1, _ => iprop(owns (c : Thread nD τ) scM fullShare (sup m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (sup m c) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjBuf m c t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = adjBuf m c t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- The two whole inputs' buffers hold their arrays at every point. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d

/-- The adjacency buffer is fetched at every point: the tile where the fetch filled it, `d` past the array's end. -/
theorem before1 (c : Dev nD) (t : Fin cfg0.N) (d) :
    (dats m 0 c).before 1 t d = (cfg0.win 1).fill (cfg0.grid.coords t) d (iblk m c 1 t) := by
  rw [(dats m 0 c).before_fetched 1 t (fetch0_1 t)]
  unfold Dat.fetched Dat.blockOf iblk; rw [A_eq]

/-- The output buffer at K-block 0: fresh (the first point, or the point before wrote it back). -/
theorem before3_reset (c : Dev nD) (t : Fin cfg0.N) (h : t.val % 5 = 0) (d) : (dats m 0 c).before 3 t d = d := by
  refine (dats m 0 c).before_out_reset 3 rfl t ?_ d
  by_cases hz : t.val = 0
  · exact .inl hz
  · refine .inr ⟨hz, (flush0_3 ⟨t.val - 1, Nat.lt_of_le_of_lt (Nat.sub_le _ _) t.isLt⟩).mpr ?_⟩
    show (t.val - 1) % 5 = 4
    omega

/-- The output buffer at a later K-block: what the point before left. -/
theorem before3_acc (c : Dev nD) (t : Fin cfg0.N) (h : t.val % 5 ≠ 0) (d) :
    (dats m 0 c).before 3 t d = accAt m c (t.val - 1) (Nat.lt_of_le_of_lt (Nat.sub_le _ _) t.isLt) := by
  have ht : t.val ≠ 0 := fun h0 => h (by rw [h0])
  have hfl : (cfg0.win 3).flush ⟨t.val - 1, Nat.lt_of_le_of_lt (Nat.sub_le _ _) t.isLt⟩ = false := by
    rw [Bool.eq_false_iff]; intro hf
    have := (flush0_3 ⟨t.val - 1, Nat.lt_of_le_of_lt (Nat.sub_le _ _) t.isLt⟩).mp hf
    have e : (t.val - 1) % 5 = 4 := this
    omega
  rw [(dats m 0 c).before_of_pos 3 t ht (fetch3 t), hfl, if_neg Bool.false_ne_true]
  unfold Dat.left; rw [live3]; dsimp only
  unfold Dat.kept
  rw [Pipeline.fill_of_clip_none (cfg := cfg0) 3 _ (clip3_none _) d ((dats m 0 c).after 3 _), Window.fill_cut, after3]

end Cert.KernelIdeal.Body

end
-- ==== Proof.KRunMid.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at a middle K-block, on any whole memrefs holding `x2` (features), `x3` (the adjacency tile), `x4` (W),
    `x5` (the output block) and `xs` (the scratch): the output block gains the tile times its 2048 rows of the scratch; all
    else is kept. -/
theorem run_mid (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : ¬k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 x5 x3 (View.ld xs (kRows i h3)))
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.KernelIdeal.Body

end
-- ==== Proof.KRunLast.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at the last K-block: the output block gains the tile's 1808 valid columns times the scratch's last 1808
    rows and is clipped below at zero; all else is kept. -/
theorem run_last (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : ¬k0_cond2 i = 1#1) (h3 : ¬k0_cond3 i = 1#1) (h4 : k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay4 (View.ld x3 tailCols) (View.ld xs tailRows) x5)
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.KernelIdeal.Body

end
-- ==== Proof.KRunReset.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at K-block 0 of a later row block: the output block is zeroed and gains the tile times the scratch's
    first 2048 rows; all else is kept. -/
theorem run_reset (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : ¬cond1 i) (h2 : k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 (k0_pay2 (F := F)) x3 (View.ld xs (kRows i h3)))
            ∗ owns (c : Thread nD τ) arg6 fullShare (xs)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr; · ipureintro; exact hfs
    iexact HS

end Cert.KernelIdeal.Body

end
-- ==== Proof.KRunFirst.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KRunDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

set_option maxHeartbeats 1000000 in
/-- The body at the first point: the scratch takes the product of the two whole inputs; the output block is zeroed and
    gains the tile times the first 2048 rows of that product. -/
theorem run_first (c : Dev nD) (i : grid0.Coords)
    (arg2 : Memref sig .tc .vmem S10000x128 .f32) (harg2 : arg2.IsWhole) (arg3 : Memref sig .tc .vmem S400x2048 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S10000x128 .f32) (harg6 : arg6.IsWhole)
    (h1 : cond1 i) (h2 : k0_cond2 i = 1#1) (h3 : k0_cond3 i = 1#1) (h4 : ¬k0_cond4 i = 1#1)
    (x2 : Vec F S10000x128 .f32) (x3 : Vec F S400x2048 .f32) (x4 : Vec F S128x128 .f32) (x5 : Vec F S400x128 .f32) (xs : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 (k0_pay2 (F := F)) x3 (View.ld (k0_pay1 x2 x4) (kRows i h3)))
            ∗ owns (c : Thread nD τ) arg6 fullShare (k0_pay1 x2 x4)) -∗ K ⟨⟩))
      ⊢ wp frame (wpE (defs₀ (F := F)) Variants.none c none) E (cc0__gnn_kernel i arg2 harg2 arg3 harg3 arg4 harg4 arg5 harg5 arg6 harg6) K := by
  simp only [cc0__gnn_kernel_eq_skeleton]; unfold cc0__gnn_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hfs
  sl_exec (disch := first | exact h1 | exact h2 | exact h3 | exact h4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]
  · iexists _; isplitr
    swap; · iexact HS
    ipureintro
    try sl_unfold_run_names
    simp only [read_writes_unit_zero (S := S400x128) _ _ hz, read_writes_cons_unit_zero (S := S400x128) _ _ hz,
      read_writes_unit_zero (S := S10000x128) _ _ hz, View.readCov_unit_zero (S := S400x128) _ hz, readCov_unit_zero_ld (S := S10000x128) _ hz,
      readAt_unit_zero_unread arg2 harg2 hz, readAt_unit_zero_unread arg3 harg3 hz, readAt_unit_zero_unread arg4 harg4 hz,
      readAt_unit_zero_unread arg5 harg5 hz, readAt_unit_zero_unread arg6 harg6 hz, readAt_unread arg3 harg3, readAt_unread arg6 harg6, View.readAt_eq_ld]

end Cert.KernelIdeal.Body

end
-- ==== Proof.KBody.lean ====
import proofs.«104776_g704374636671_cont_9to1_m_152_16_alg».proof.Proof.Gen.KernelIdeal.Frame
import proofs.«104776_g704374636671_cont_9to1_m_152_16_alg».proof.Proof.Gen.KernelIdeal.Skeleton
import proofs.«104776_g704374636671_cont_9to1_m_152_16_alg».proof.Proof.KData
import proofs.«104776_g704374636671_cont_9to1_m_152_16_alg».proof.Proof.KRunMid
import proofs.«104776_g704374636671_cont_9to1_m_152_16_alg».proof.Proof.KRunLast
import proofs.«104776_g704374636671_cont_9to1_m_152_16_alg».proof.Proof.KRunReset
import proofs.«104776_g704374636671_cont_9to1_m_152_16_alg».proof.Proof.KRunFirst
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.WholeBuf Idealize.ShloMosaic.WholeStore
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body obligation: at every point the body, handed the invariant and the four staging buffers at what they
    hold, leaves them at the proof data's contents for that point. The point is in one of four cases (the first point;
    K-block 0 of a later row block; a middle K-block; the last K-block); in each the matching run applies, and its
    payload is the proof data's output block by one of the four equations below. -/

/-! ## The output block, case by case -/

theorem sup_first (c : Dev nD) (t : Fin cfg0.N) (hz0 : t.val = 0) :
    sup m c = k0_pay1 (iblk m c 0 t) (iblk m c 2 t) := by
  obtain ⟨n, hn⟩ := t
  cases n with
  | zero => rfl
  | succ n => exact absurd hz0 (Nat.succ_ne_zero n)

theorem acc_first (c : Dev nD) (t : Fin cfg0.N) (hz0 : t.val = 0) (h3 : k0_cond3 (grid0.coords t) = 1#1) (d : S400x2048.Idx → Elt F .f32) :
    accAt m c t.val t.isLt = k0_pay3 (k0_pay2 (F := F)) ((cfg0.win 1).fill (cfg0.grid.coords t) d (iblk m c 1 t))
      (View.ld (k0_pay1 (iblk m c 0 t) (iblk m c 2 t)) (kRows (grid0.coords t) h3)) := by
  have h4 : ¬t.val % 5 = 4 := by omega
  have h0 : t.val % 5 = 0 := by omega
  rw [accAt_zero m c t hz0, ← accStep_fill m c t d, ← sup_first m c t hz0]
  unfold accStep; rw [dif_neg h4, if_pos h0]

theorem acc_reset (c : Dev nD) (t : Fin cfg0.N) (hz0 : t.val ≠ 0) (h0 : t.val % 5 = 0) (h3 : k0_cond3 (grid0.coords t) = 1#1) (d : S400x2048.Idx → Elt F .f32) :
    accAt m c t.val t.isLt = k0_pay3 (k0_pay2 (F := F)) ((cfg0.win 1).fill (cfg0.grid.coords t) d (iblk m c 1 t))
      (View.ld (sup m c) (kRows (grid0.coords t) h3)) := by
  have h4 : ¬t.val % 5 = 4 := by omega
  rw [accAt_pos m c t hz0, ← accStep_fill m c t d]
  unfold accStep; rw [dif_neg h4, if_pos h0]

theorem acc_mid (c : Dev nD) (t : Fin cfg0.N) (h0 : ¬t.val % 5 = 0) (h4 : ¬t.val % 5 = 4) (h3 : k0_cond3 (grid0.coords t) = 1#1) (d : S400x2048.Idx → Elt F .f32) :
    accAt m c t.val t.isLt = k0_pay3 (accAt m c (t.val - 1) (Nat.lt_of_le_of_lt (Nat.sub_le _ _) t.isLt)) ((cfg0.win 1).fill (cfg0.grid.coords t) d (iblk m c 1 t))
      (View.ld (sup m c) (kRows (grid0.coords t) h3)) := by
  have hz0 : t.val ≠ 0 := fun h => h0 (by rw [h])
  rw [accAt_pos m c t hz0, ← accStep_fill m c t d]
  unfold accStep; rw [dif_neg h4, if_neg h0]

theorem acc_last (c : Dev nD) (t : Fin cfg0.N) (h4 : t.val % 5 = 4) (d : S400x2048.Idx → Elt F .f32) :
    accAt m c t.val t.isLt = k0_pay4 (View.ld ((cfg0.win 1).fill (cfg0.grid.coords t) d (iblk m c 1 t)) tailCols) (View.ld (sup m c) tailRows)
      (accAt m c (t.val - 1) (Nat.lt_of_le_of_lt (Nat.sub_le _ _) t.isLt)) := by
  have hz0 : t.val ≠ 0 := fun h => by rw [h] at h4; exact absurd h4 (by decide)
  rw [accAt_pos m c t hz0, ← accStep_fill m c t d]
  unfold accStep; rw [dif_pos h4]; rfl

/-! ## What the obligation hands back, window by window -/

theorem leaves0 (c : Dev nD) (t : Fin cfg0.N) :
    (dats m 0 c).leaves 0 t = owns (c : Thread nD τ) (st0_0 t) fullShare (iblk m c 0 t) := by
  rw [← after0 m c t]
theorem leaves2 (c : Dev nD) (t : Fin cfg0.N) :
    (dats m 0 c).leaves 2 t = owns (c : Thread nD τ) (st0_2 t) fullShare (iblk m c 2 t) := by
  rw [← after2 m c t]
/-- The adjacency window is stated on the part its fetch fills only. -/
theorem leaves1 (c : Dev nD) (t : Fin cfg0.N) :
    (dats m 0 c).leaves 1 t = iprop(∃ d, owns (c : Thread nD τ) (st0_1 t) fullShare ((cfg0.win 1).fill (cfg0.grid.coords t) d (iblk m c 1 t))) := by
  have e : (cfg0.win 1).cut (cfg0.grid.coords t) ((dats m 0 c).after 1 t) = iblk m c 1 t := by
    rw [after1]; unfold adjBuf; exact (cfg0.win 1).cut_fill _ _ _
  rw [← e]
theorem leaves3 (c : Dev nD) (t : Fin cfg0.N) :
    (dats m 0 c).leaves 3 t = owns (c : Thread nD τ) (st0_3 t) fullShare (accAt m c t.val t.isLt) := by
  rw [← after3 m c t]; unfold Dat.leaves; rw [live3 t]

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem Phi_succ (c : Dev nD) (t : Fin cfg0.N) :
    (dats m 0 c).Φ t.succ = iprop(owns (c : Thread nD τ) scM fullShare (sup m c) ∗ (∃ r, prngReg c r)) := rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, Phi_succ, Phi_castSucc,
    leaves0, leaves1, leaves2, leaves3]
  by_cases hz0 : t.val = 0
  · -- the first point
    have h0 : t.val % 5 = 0 := by omega
    have h4 : ¬t.val % 5 = 4 := by omega
    have hc1 : cond1 (grid0.coords t) := (hcond1 t).mpr hz0
    have hc2 : k0_cond2 (grid0.coords t) = 1#1 := (hcond2 t).mpr h0
    have hc3 : k0_cond3 (grid0.coords t) = 1#1 := (hcond3 t).mpr h4
    have hc4 : ¬k0_cond4 (grid0.coords t) = 1#1 := fun h => h4 ((hcond4 t).mp h)
    simp only [before3_reset m c t h0]
    rw [PhiS_zero m c _ _ hz0, PhiA_eq]
    iintro ⟨⟨⟨%ds, HS⟩, Hg⟩, Ho, ⟨%d0, H0⟩, ⟨%d1, H1⟩, ⟨%d2, H2⟩, ⟨%d3, H3⟩⟩
    rw [acc_first m c t hz0 hc3 d1, sup_first m c t hz0]
    iapply (run_first c (grid0.coords t) _ _ _ _ _ _ _ _ _ _ hc1 hc2 hc3 hc4 (iblk m c 0 t) _ (iblk m c 2 t) d3 ds Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexists d1; iexact H1
    isplitl [H2]; · iexact H2
    iexact H3
  · rw [PhiS_pos m c _ _ hz0]
    by_cases h4 : t.val % 5 = 4
    · -- the last K-block
      have h0 : ¬t.val % 5 = 0 := by omega
      have hc1 : ¬cond1 (grid0.coords t) := fun h => hz0 ((hcond1 t).mp h)
      have hc2 : ¬k0_cond2 (grid0.coords t) = 1#1 := fun h => h0 ((hcond2 t).mp h)
      have hc3 : ¬k0_cond3 (grid0.coords t) = 1#1 := fun h => ((hcond3 t).mp h) h4
      have hc4 : k0_cond4 (grid0.coords t) = 1#1 := (hcond4 t).mpr h4
      simp only [before3_acc m c t h0]
      iintro ⟨⟨HS, Hg⟩, Ho, ⟨%d0, H0⟩, ⟨%d1, H1⟩, ⟨%d2, H2⟩, ⟨%d3, H3⟩⟩
      rw [acc_last m c t h4 d1]
      iapply (run_last c (grid0.coords t) _ _ _ _ _ _ _ _ _ _ hc1 hc2 hc3 hc4 (iblk m c 0 t) _ (iblk m c 2 t) _ (sup m c) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexists d1; iexact H1
      isplitl [H2]; · iexact H2
      iexact H3
    · have hc1 : ¬cond1 (grid0.coords t) := fun h => hz0 ((hcond1 t).mp h)
      have hc3 : k0_cond3 (grid0.coords t) = 1#1 := (hcond3 t).mpr h4
      have hc4 : ¬k0_cond4 (grid0.coords t) = 1#1 := fun h => h4 ((hcond4 t).mp h)
      by_cases h0 : t.val % 5 = 0
      · -- K-block 0 of a later row block
        have hc2 : k0_cond2 (grid0.coords t) = 1#1 := (hcond2 t).mpr h0
        simp only [before3_reset m c t h0]
        iintro ⟨⟨HS, Hg⟩, Ho, ⟨%d0, H0⟩, ⟨%d1, H1⟩, ⟨%d2, H2⟩, ⟨%d3, H3⟩⟩
        rw [acc_reset m c t hz0 h0 hc3 d1]
        iapply (run_reset c (grid0.coords t) _ _ _ _ _ _ _ _ _ _ hc1 hc2 hc3 hc4 (iblk m c 0 t) _ (iblk m c 2 t) d3 (sup m c) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexists d1; iexact H1
        isplitl [H2]; · iexact H2
        iexact H3
      · -- a middle K-block
        have hc2 : ¬k0_cond2 (grid0.coords t) = 1#1 := fun h => h0 ((hcond2 t).mp h)
        simp only [before3_acc m c t h0]
        iintro ⟨⟨HS, Hg⟩, Ho, ⟨%d0, H0⟩, ⟨%d1, H1⟩, ⟨%d2, H2⟩, ⟨%d3, H3⟩⟩
        rw [acc_mid m c t h0 h4 hc3 d1]
        iapply (run_mid c (grid0.coords t) _ _ _ _ _ _ _ _ _ _ hc1 hc2 hc3 hc4 (iblk m c 0 t) _ (iblk m c 2 t) _ (sup m c) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexists d1; iexact H1
        isplitl [H2]; · iexact H2
        iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 125 := N_0; omega), PhiA_eq]
  iintro ⟨HS, Hg⟩
  isplitl [HS]
  · iexists _; iexact HS
  iexact Hg

set_option backward.isDefEq.respectTransparency.types false in
/-- At the compiled mesh, for any values, from any memory with zero counters: every weakly fair execution of @main
    terminates, and every final state has every array of the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs to the end, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibProduct.lean ====
/-
  The rows-by-columns product as ONE function of two arrays, and the two spellings of it that programs use.

  `prod x w (a, b) = Σ_k x (a, k) · w (k, b)` over the extended reals. For dimension numbers that contract the left
  operand's second axis with the right operand's first and batch nothing, both the matrix unit's product
  accumulated into a zero array and the host's `dot_general` are this function, whatever formats the operands are
  stored in: on the extended reals a format is only a label.
-/
import Idealize.ShloMosaic.PureOps.Ideal.Laws
import Idealize.ShloMosaic.Lib.ValueIdx
import proofs.«104776_g704374636671_cont_9to1_m_152_16_alg».proof.Proof.LibDot

noncomputable section

open scoped BigOperators

namespace Idealize.ShloMosaic.RowsByCols

open Idealize.ShloMosaic Idealize.ShloMosaic.ValueIdx

variable {M K N : ℕ}

/-- The product of an `M × K` array and a `K × N` array: entry `(a, b)` is `Σ_k x (a, k) · w (k, b)`. -/
def prod (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- The product at explicit coordinates. -/
theorem prod_apply (x : (⟨2, ![M, K]⟩ : Shape).Idx → EReal) (w : (⟨2, ![K, N]⟩ : Shape).Idx → EReal) (a : Fin M) (b : Fin N) :
    prod x w (ix2 a b) = ∑ k : Fin K, x (ix2 a k) * w (ix2 k b) := rfl

/-- The host's `dot_general` with dimension numbers `[1] × [0]` and no batch axes is the product. -/
theorem host_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    Host.dotGeneral D prec l r = prod l r := by
  funext j
  obtain ⟨a, b, rfl⟩ : ∃ (a : Fin M) (b : Fin N), j = ix2 a b := ⟨j 0, j 1, eq_ix2 j⟩
  show FloatOps.dotGeneral D prec .single l r (ix2 a b) = _
  rw [Ideal.dotGeneral_apply, PlainDot.sum_eq D h1 h2 h3 h4 h5 h6]
  rfl

/-- The matrix unit's product with the same dimension numbers, accumulated into the zero array, is the product. -/
theorem mxu_eq {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ φ₁) (r : FVec Ideal ⟨2, ![K, N]⟩ φ₂) :
    matmul D prec l r (constant (F := Ideal) ⟨2, ![M, N]⟩ .f32 0x00000000#32) = prod l r := by
  funext j
  obtain ⟨a, b, rfl⟩ : ∃ (a : Fin M) (b : Fin N), j = ix2 a b := ⟨j 0, j 1, eq_ix2 j⟩
  show FloatOps.matmul D prec l r (constant (F := Ideal) ⟨2, ![M, N]⟩ .f32 0x00000000#32) (ix2 a b) = _
  rw [Ideal.matmul_constant_zero_apply, PlainDot.sum_eq D h1 h2 h3 h4 h5 h6]
  rfl

end Idealize.ShloMosaic.RowsByCols

end
-- ==== Proof.KValA.lean ====
import proofs.«104776_g704374636671_cont_9to1_m_152_16_alg».proof.Proof.Gen.KernelIdeal.Skeleton
import proofs.«104776_g704374636671_cont_9to1_m_152_16_alg».proof.Proof.LibProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx Idealize.ShloMosaic.RowsByCols

/-! The body's four payloads over the extended reals, as formulas: the product of the two whole inputs; zero; a
    block plus a tile times 2048 rows; and a block plus the last tile times 1808 rows, clipped below at zero. -/

theorem pay1_eq (x0 : FVec Ideal S10000x128 .f32) (x2 : FVec Ideal S128x128 .f32) : k0_pay1 (F := Ideal) x0 x2 = prod x0 x2 := by
  unfold k0_pay1; try dsimp only
  rw [shapeCast_self]
  exact mxu_eq dot_S10000x128_S128x128_S10000x128_1_0_0_1_n_n rfl rfl rfl rfl rfl rfl none x0 x2

theorem pay2_apply (y : S400x128.Idx) : k0_pay2 (F := Ideal) y = 0 := by
  unfold k0_pay2; try dsimp only
  rw [broadcast_apply]
  exact Ideal.ofBits_zero_f32

theorem pay3_apply (prev : FVec Ideal S400x128 .f32) (x3 : FVec Ideal S400x2048 .f32) (sl : FVec Ideal S2048x128 .f32) (y : S400x128.Idx) :
    k0_pay3 (F := Ideal) prev x3 sl y = prev y + prod x3 sl y := by
  unfold k0_pay3; try dsimp only
  rw [shapeCast_self, addf_apply, mxu_eq dot_S400x2048_S2048x128_S400x128_1_0_0_1_n_n rfl rfl rfl rfl rfl rfl none x3 sl]

theorem pay4_apply (xt : FVec Ideal S400x1808 .f32) (st : FVec Ideal S1808x128 .f32) (prev : FVec Ideal S400x128 .f32) (y : S400x128.Idx) :
    k0_pay4 (F := Ideal) xt st prev y = max (prev y + prod xt st y) 0 := by
  unfold k0_pay4; try dsimp only
  rw [shapeCast_self, maximumf_apply, addf_apply, broadcast_apply,
    mxu_eq dot_S400x1808_S1808x128_S400x128_1_0_0_1_n_n rfl rfl rfl rfl rfl rfl none xt st]
  exact congrArg (fun z => max (prev y + prod xt st y) z) Ideal.ofBits_zero_f32

/-- A sum over `Fin n` with `n = a + b` is the sum over its first `a` indices plus the sum over the `b` after them. -/
theorem sum_fin_split {M : Type} [AddCommMonoid M] {n : ℕ} (a b : ℕ) (h : a + b = n) (f : Fin n → M) :
    ∑ k, f k = ∑ x : Fin a, f ⟨x.val, by omega⟩ + ∑ x : Fin b, f ⟨a + x.val, by omega⟩ := by
  subst h
  rw [Fin.sum_univ_add]
  rfl

/-- The sum over 10000 indices as the body accumulates it: from zero, four stretches of 2048 and one of 1808. -/
theorem sum_five (f : Fin 10000 → EReal) :
    ((((0 + ∑ x : Fin 2048, f ⟨x.val, by omega⟩) + ∑ x : Fin 2048, f ⟨2048 + x.val, by omega⟩) + ∑ x : Fin 2048, f ⟨4096 + x.val, by omega⟩)
      + ∑ x : Fin 2048, f ⟨6144 + x.val, by omega⟩) + ∑ x : Fin 1808, f ⟨8192 + x.val, by omega⟩ = ∑ k, f k := by
  rw [zero_add, sum_fin_split 8192 1808 rfl f, sum_fin_split 6144 2048 rfl (fun x : Fin 8192 => f ⟨x.val, by omega⟩),
    sum_fin_split 4096 2048 rfl (fun x : Fin 6144 => f ⟨x.val, by omega⟩),
    sum_fin_split 2048 2048 rfl (fun x : Fin 4096 => f ⟨x.val, by omega⟩)]

end Cert.KernelIdeal.Val

end
-- ==== Proof.KValB.lean ====
import proofs.«104776_g704374636671_cont_9to1_m_152_16_alg».proof.Proof.KData
import proofs.«104776_g704374636671_cont_9to1_m_152_16_alg».proof.Proof.KValA
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Body
open Idealize.ShloMosaic Idealize.ShloMosaic.TcCoe Idealize.ShloMosaic.ValueIdx Idealize.ShloMosaic.RowsByCols
open Idealize.SL Idealize.SL.Sem
open Idealize.ShloMosaic.Pipeline (Dat Cfg Window)

variable (m : (ℓ : Loc nD τ sig) → Buf (Elt Ideal) ℓ)

/-! Reading the staging contents at coordinates: the two whole inputs' blocks are the arrays themselves; entry
    `(y0, x)` of the adjacency tile at point `t` is the array's entry at row `400 · (t / 5) + y0`, column
    `2048 · (t % 5) + x`; row `x` of the scratch rows K-block `t % 5` multiplies is the scratch's row `2048 · (t % 5) + x`. -/

/-- The index maps in closed form over the grid: the adjacency window's block index is (row block, K-block), the
    output window's (row block, 0); the scratch rows start at `2048 · (K-block)`. -/
theorem idx_facts : ∀ t : Fin cfg0.N, win0_1.index t (0 : Fin 2) = t.val / 5 ∧ win0_1.index t (1 : Fin 2) = t.val % 5
    ∧ win0_3.index t (0 : Fin 2) = t.val / 5 ∧ win0_3.index t (1 : Fin 2) = 0
    ∧ win0_0.index t (0 : Fin 2) = 0 ∧ win0_0.index t (1 : Fin 2) = 0
    ∧ win0_2.index t (0 : Fin 2) = 0 ∧ win0_2.index t (1 : Fin 2) = 0 :=
  (by decide +kernel : ∀ t : Fin grid0.N, _)

theorem off_facts : ∀ t : Fin cfg0.N, k0_off1 (grid0.coords t) (0 : Fin 2) = 2048 * (t.val % 5) ∧ k0_off1 (grid0.coords t) (1 : Fin 2) = 0 :=
  (by decide +kernel : ∀ t : Fin grid0.N, _)

/-- The features window's block is the whole array. -/
theorem feat_eq (c : Dev nD) (t : Fin cfg0.N) : iblk m c 0 t = m ((c : Thread nD τ).loc main_arg0) := by
  obtain ⟨_, _, _, _, e0, e1, _, _⟩ := idx_facts t
  funext j
  show V m c main_arg0 (((cfg0.win 0).blk t).view.emb j) = m ((c : Thread nD τ).loc main_arg0) j
  have h : ((cfg0.win 0).blk t).view.emb j = j := by
    funext a; apply Fin.ext
    match a with
    | ⟨0, _⟩ => show win0_0.index t (0 : Fin 2) * 10000 + 1 * (j 0).val = (j 0).val; omega
    | ⟨1, _⟩ => show win0_0.index t (1 : Fin 2) * 128 + 1 * (j 1).val = (j 1).val; omega
  rw [h]

/-- The weights window's block is the whole array. -/
theorem w_eq (c : Dev nD) (t : Fin cfg0.N) : iblk m c 2 t = m ((c : Thread nD τ).loc main_arg2) := by
  obtain ⟨_, _, _, _, _, _, e0, e1⟩ := idx_facts t
  funext j
  show V m c main_arg2 (((cfg0.win 2).blk t).view.emb j) = m ((c : Thread nD τ).loc main_arg2) j
  have h : ((cfg0.win 2).blk t).view.emb j = j := by
    funext a; apply Fin.ext
    match a with
    | ⟨0, _⟩ => show win0_2.index t (0 : Fin 2) * 128 + 1 * (j 0).val = (j 0).val; omega
    | ⟨1, _⟩ => show win0_2.index t (1 : Fin 2) * 128 + 1 * (j 1).val = (j 1).val; omega
  rw [h]

/-- The scratch holds the product features · W. -/
theorem sup_eq (c : Dev nD) : sup m c = prod (m ((c : Thread nD τ).loc main_arg0)) (m ((c : Thread nD τ).loc main_arg2)) := by
  unfold sup
  rw [feat_eq, w_eq]
  exact pay1_eq _ _

/-- An entry of the adjacency buffer inside the part the fetch filled is the array's entry. -/
theorem adjBuf_apply (c : Dev nD) (t : Fin cfg0.N) (y0 : Fin 400) (x : Fin 2048) (hx : t.val % 5 = 4 → x.val < 1808)
    (hr : 400 * (t.val / 5) + y0.val < 10000) (hc : 2048 * (t.val % 5) + x.val < 10000) :
    adjBuf m c t (ix2 y0 x) = m ((c : Thread nD τ).loc main_arg1) (ix2 ⟨400 * (t.val / 5) + y0.val, hr⟩ ⟨2048 * (t.val % 5) + x.val, hc⟩) := by
  obtain ⟨e0, e1, _, _, _, _, _, _⟩ := idx_facts t
  have hm : (cfg0.win 1).moved (cfg0.grid.coords t) (ix2 y0 x) = true := by
    rw [Window.moved_iff]
    intro a
    by_cases h4 : t.val % 5 = 4
    · obtain ⟨h0, h1⟩ := xsize1_last t h4
      match a with
      | ⟨0, _⟩ => show y0.val < (cfg0.win 1).xsize (cfg0.grid.coords t) 0; rw [h0]; exact y0.isLt
      | ⟨1, _⟩ => show x.val < (cfg0.win 1).xsize (cfg0.grid.coords t) 1; rw [h1]; exact hx h4
    · have hn := clip1_none t h4 a
      show ((ix2 y0 x) a).val < ((cfg0.win 1).clip (cfg0.grid.coords t) a).extent ((cfg0.win 1).size a)
      rw [hn]
      exact ((ix2 y0 x) a).isLt
  unfold adjBuf Window.fill
  rw [dif_pos hm]
  show V m c main_arg1 (((cfg0.win 1).blk t).view.emb _) = _
  refine congrArg (m ((c : Thread nD τ).loc main_arg1)) ?_
  funext a; apply Fin.ext
  match a with
  | ⟨0, _⟩ => show win0_1.index t (0 : Fin 2) * 400 + 1 * y0.val = 400 * (t.val / 5) + y0.val; omega
  | ⟨1, _⟩ => show win0_1.index t (1 : Fin 2) * 2048 + 1 * x.val = 2048 * (t.val % 5) + x.val; omega

end Cert.KernelIdeal.Val

end
-- ==== Proof.KValC.lean ====
import proofs.«104776_g704374636671_cont_9to1_m_152_16_alg».proof.Proof.KValB
import proofs.«104776_g704374636671_cont_9to1_m_152_16_alg».proof.Proof.KBody
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Body
open Idealize.ShloMosaic Idealize.ShloMosaic.TcCoe Idealize.ShloMosaic.ValueIdx Idealize.ShloMosaic.RowsByCols
open Idealize.SL Idealize.SL.Sem
open Idealize.ShloMosaic.Pipeline (Dat Cfg Window)

variable (m : (ℓ : Loc nD τ sig) → Buf (Elt Ideal) ℓ)

/-! The output block accumulates the row-by-column sum: after K-block `k &lt; 4` of a row block it holds the sum of the
    first `2048 · (k + 1)` terms, and after the last K-block the whole sum over 10000 terms clipped below at zero.
    The terms are written as a function of a natural number so that the stretches of the sum join by arithmetic. -/

/-- The array row that row `y0` of the output block at point `n` belongs to. -/
def rowOf (n : ℕ) (hn : n < cfg0.N) (y0 : Fin 400) : Fin 10000 :=
  ⟨400 * (n / 5) + y0.val, by have hN : cfg0.N = 125 := N_0; have := y0.isLt; omega⟩

/-- Term `x` of entry `(r, y1)` of the product `A · P` (zero past the last index). -/
def term (A : FVec Ideal S10000x10000 .f32) (P : FVec Ideal S10000x128 .f32) (r : Fin 10000) (y1 : Fin 128) (x : ℕ) : EReal :=
  if h : x < 10000 then A (ix2 r ⟨x, h⟩) * P (ix2 ⟨x, h⟩ y1) else 0

theorem supRows_apply (S : Vec Ideal S10000x128 .f32) (t : Fin cfg0.N) (h3 : k0_cond3 (grid0.coords t) = 1#1) (x : Fin 2048) (y1 : Fin 128)
    (hc : 2048 * (t.val % 5) + x.val < 10000) :
    View.ld S (kRows (grid0.coords t) h3) (ix2 (n0 := 2048) (n1 := 128) x y1) = S (ix2 ⟨2048 * (t.val % 5) + x.val, hc⟩ y1) := by
  obtain ⟨e0, e1⟩ := off_facts t
  show S ((kRows (grid0.coords t) h3).idx (ix2 (n0 := 2048) (n1 := 128) x y1)) = _
  refine congrArg S ?_
  funext a; apply Fin.ext
  match a with
  | ⟨0, _⟩ => show k0_off1 (grid0.coords t) (0 : Fin 2) + 1 * x.val = 2048 * (t.val % 5) + x.val; omega
  | ⟨1, _⟩ => show k0_off1 (grid0.coords t) (1 : Fin 2) + 1 * y1.val = y1.val; omega

theorem supTail_apply (S : Vec Ideal S10000x128 .f32) (x : Fin 1808) (y1 : Fin 128) :
    View.ld S tailRows (ix2 (n0 := 1808) (n1 := 128) x y1) = S (ix2 ⟨8192 + x.val, by omega⟩ y1) := by
  show S (tailRows.idx (ix2 (n0 := 1808) (n1 := 128) x y1)) = _
  refine congrArg S ?_
  funext a; apply Fin.ext
  match a with
  | ⟨0, _⟩ => show 8192 + 1 * x.val = 8192 + x.val; omega
  | ⟨1, _⟩ => show 0 + 1 * y1.val = y1.val; omega

theorem adjTail_apply (X : Vec Ideal S400x2048 .f32) (y0 : Fin 400) (x : Fin 1808) :
    View.ld X tailCols (ix2 (n0 := 400) (n1 := 1808) y0 x) = X (ix2 y0 ⟨x.val, by omega⟩) := by
  show X (tailCols.idx (ix2 (n0 := 400) (n1 := 1808) y0 x)) = _
  refine congrArg X ?_
  funext a; apply Fin.ext
  match a with
  | ⟨0, _⟩ => show 0 + 1 * y0.val = y0.val; omega
  | ⟨1, _⟩ => show 0 + 1 * x.val = x.val; omega

/-- The adjacency array as launched. -/
abbrev adjA (c : Dev nD) : FVec Ideal S10000x10000 .f32 := m ((c : Thread nD τ).loc main_arg1)
/-- The product features · W of the arrays as launched. -/
abbrev prodP (c : Dev nD) : FVec Ideal S10000x128 .f32 := prod (m ((c : Thread nD τ).loc main_arg0)) (m ((c : Thread nD τ).loc main_arg2))

/-- A K-block before the last adds its 2048 terms, to zero at K-block 0 and to the block before otherwise. -/
theorem step_apply (c : Dev nD) (t : Fin cfg0.N) (h4 : ¬t.val % 5 = 4) (prev : FVec Ideal S400x128 .f32) (y0 : Fin 400) (y1 : Fin 128) :
    accStep m c t (adjBuf m c t) prev (ix2 y0 y1)
      = (if t.val % 5 = 0 then 0 else prev (ix2 y0 y1)) + ∑ x ∈ Finset.range 2048, term (adjA m c) (prodP m c) (rowOf t.val t.isLt y0) y1 (2048 * (t.val % 5) + x) := by
  have hN : cfg0.N = 125 := N_0
  unfold accStep
  rw [dif_neg h4, pay3_apply, prod_apply, ← Fin.sum_univ_eq_sum_range (fun x => term (adjA m c) (prodP m c) (rowOf t.val t.isLt y0) y1 (2048 * (t.val % 5) + x)) 2048]
  congr 1
  · by_cases h0 : t.val % 5 = 0
    · rw [if_pos h0, if_pos h0, pay2_apply]
    · rw [if_neg h0, if_neg h0]
  · refine Finset.sum_congr rfl fun x _ => ?_
    have hx := x.isLt
    have hc : 2048 * (t.val % 5) + x.val < 10000 := by omega
    have hr : 400 * (t.val / 5) + y0.val < 10000 := by have := y0.isLt; have := t.isLt; omega
    rw [adjBuf_apply m c t y0 x (fun h => absurd h h4) hr hc, supRows_apply _ t _ x y1 hc, sup_eq]
    unfold term; rw [dif_pos hc]; rfl

/-- The last K-block adds its 1808 terms and clips below at zero. -/
theorem last_apply (c : Dev nD) (t : Fin cfg0.N) (h4 : t.val % 5 = 4) (prev : FVec Ideal S400x128 .f32) (y0 : Fin 400) (y1 : Fin 128) :
    accStep m c t (adjBuf m c t) prev (ix2 y0 y1)
      = max (prev (ix2 y0 y1) + ∑ x ∈ Finset.range 1808, term (adjA m c) (prodP m c) (rowOf t.val t.isLt y0) y1 (8192 + x)) 0 := by
  have hN : cfg0.N = 125 := N_0
  unfold accStep
  rw [dif_pos h4, pay4_apply, prod_apply, ← Fin.sum_univ_eq_sum_range (fun x => term (adjA m c) (prodP m c) (rowOf t.val t.isLt y0) y1 (8192 + x)) 1808]
  congr 2
  refine Finset.sum_congr rfl fun x _ => ?_
  have hx := x.isLt
  have hc : 2048 * (t.val % 5) + (⟨x.val, by omega⟩ : Fin 2048).val < 10000 := by show 2048 * (t.val % 5) + x.val < 10000; omega
  have hr : 400 * (t.val / 5) + y0.val < 10000 := by have := y0.isLt; have := t.isLt; omega
  rw [adjTail_apply, adjBuf_apply m c t y0 ⟨x.val, by omega⟩ (fun _ => hx) hr hc, supTail_apply, sup_eq]
  unfold term
  have hc' : 8192 + x.val < 10000 := by omega
  rw [dif_pos hc']
  have e : (⟨2048 * (t.val % 5) + x.val, hc⟩ : Fin 10000) = ⟨8192 + x.val, hc'⟩ := Fin.ext (by show 2048 * (t.val % 5) + x.val = 8192 + x.val; omega)
  rw [show (⟨2048 * (t.val % 5) + (⟨x.val, by omega⟩ : Fin 2048).val, hc⟩ : Fin 10000) = ⟨8192 + x.val, hc'⟩ from e]
  rfl

/-- After K-block `n % 5 &lt; 4` the output block holds the first `2048 · (n % 5 + 1)` terms' sum. -/
theorem acc_partial (c : Dev nD) : ∀ (n : ℕ) (hn : n < cfg0.N), n % 5 ≠ 4 → ∀ (y0 : Fin 400) (y1 : Fin 128),
    accAt m c n hn (ix2 y0 y1) = ∑ x ∈ Finset.range (2048 * (n % 5 + 1)), term (adjA m c) (prodP m c) (rowOf n hn y0) y1 x
  | 0, hn, _, y0, y1 => by
    show accStep m c ⟨0, hn⟩ (adjBuf m c ⟨0, hn⟩) (k0_pay2 (F := Ideal)) (ix2 y0 y1) = _
    rw [step_apply m c ⟨0, hn⟩ (show ¬(0 % 5 = 4) by decide)]
    show (if 0 % 5 = 0 then (0 : EReal) else _) + ∑ x ∈ Finset.range 2048, term (adjA m c) (prodP m c) (rowOf 0 hn y0) y1 (2048 * (0 % 5) + x) = _
    rw [if_pos (by decide), zero_add]
    refine Finset.sum_congr rfl fun x _ => ?_
    rw [show 2048 * (0 % 5) + x = x by omega]
  | n + 1, hn, h, y0, y1 => by
    show accStep m c ⟨n + 1, hn⟩ (adjBuf m c ⟨n + 1, hn⟩) (accAt m c n (Nat.lt_of_succ_lt hn)) (ix2 y0 y1) = _
    rw [step_apply m c ⟨n + 1, hn⟩ h]
    show (if (n + 1) % 5 = 0 then (0 : EReal) else accAt m c n (Nat.lt_of_succ_lt hn) (ix2 y0 y1))
      + ∑ x ∈ Finset.range 2048, term (adjA m c) (prodP m c) (rowOf (n + 1) hn y0) y1 (2048 * ((n + 1) % 5) + x) = _
    by_cases h0 : (n + 1) % 5 = 0
    · rw [if_pos h0, zero_add, h0]
      refine Finset.sum_congr rfl fun x _ => ?_
      rw [show 2048 * 0 + x = x by omega]
    · rw [if_neg h0, acc_partial c n (Nat.lt_of_succ_lt hn) (by omega) y0 y1]
      have hk : (n + 1) % 5 = n % 5 + 1 := by omega
      have hr : rowOf n (Nat.lt_of_succ_lt hn) y0 = rowOf (n + 1) hn y0 :=
        Fin.ext (by show 400 * (n / 5) + y0.val = 400 * ((n + 1) / 5) + y0.val; omega)
      rw [hr, hk, show 2048 * (n % 5 + 1 + 1) = 2048 * (n % 5 + 1) + 2048 by omega, Finset.sum_range_add]

/-- After the last K-block the output block holds the whole row-by-column sum, clipped below at zero. -/
theorem acc_final (c : Dev nD) (t : Fin cfg0.N) (h4 : t.val % 5 = 4) (y0 : Fin 400) (y1 : Fin 128) :
    accAt m c t.val t.isLt (ix2 y0 y1) = max (prod (adjA m c) (prodP m c) (ix2 (rowOf t.val t.isLt y0) y1)) 0 := by
  have hN : cfg0.N = 125 := N_0
  have hz0 : t.val ≠ 0 := fun h => by rw [h] at h4; exact absurd h4 (by decide)
  rw [accAt_pos m c t hz0, last_apply m c t h4, acc_partial m c (t.val - 1) _ (by omega) y0 y1, prod_apply]
  have hr : rowOf (t.val - 1) (Nat.lt_of_le_of_lt (Nat.sub_le _ _) t.isLt) y0 = rowOf t.val t.isLt y0 :=
    Fin.ext (by show 400 * ((t.val - 1) / 5) + y0.val = 400 * (t.val / 5) + y0.val; omega)
  rw [hr, show 2048 * ((t.val - 1) % 5 + 1) = 8192 by omega, ← Finset.sum_range_add,
    ← Fin.sum_univ_eq_sum_range (fun x => term (adjA m c) (prodP m c) (rowOf t.val t.isLt y0) y1 x) (8192 + 1808)]
  refine congrArg (fun z => max z 0) ?_
  refine Finset.sum_congr rfl fun k _ => ?_
  unfold term
  rw [dif_pos k.isLt]

end Cert.KernelIdeal.Val

end
-- ==== Proof.Spec.lean ====
import proofs.«104776_g704374636671_cont_9to1_m_152_16_alg».proof.Proof.LibProduct

noncomputable section

namespace Cert.GnnSpec

open Idealize.ShloMosaic Idealize.ShloMosaic.RowsByCols

/-- The layer's result over the extended reals: `max (adj · (features · W), 0)`, entry by entry — the function both
    programs are shown to compute. -/
def G (x0 : (⟨2, ![10000, 128]⟩ : Shape).Idx → EReal) (x1 : (⟨2, ![10000, 10000]⟩ : Shape).Idx → EReal)
    (x2 : (⟨2, ![128, 128]⟩ : Shape).Idx → EReal) : (⟨2, ![10000, 128]⟩ : Shape).Idx → EReal :=
  fun i => max (prod x1 (prod x0 x2) i) 0

end Cert.GnnSpec

end
-- ==== Proof.KValD.lean ====
import proofs.«104776_g704374636671_cont_9to1_m_152_16_alg».proof.Proof.KValC
import proofs.«104776_g704374636671_cont_9to1_m_152_16_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Body
open Idealize.ShloMosaic Idealize.ShloMosaic.TcCoe Idealize.ShloMosaic.ValueIdx Idealize.ShloMosaic.RowsByCols
open Idealize.SL Idealize.SL.Sem
open Idealize.ShloMosaic.Pipeline (Dat Cfg Window)

variable (m : (ℓ : Loc nD τ sig) → Buf (Elt Ideal) ℓ)

variable (ρ : Dev nD → PrngReg)

/-! From blocks to the array: what the last K-block of row block `t / 5` writes back is rows `400 · (t / 5) …` of the
    layer's function of the launched arrays; the 25 row blocks cover the result array; so the run ends with the result
    array at that function and the three arguments unchanged. -/

/-- The layer's function of the arrays as launched on core `c`. -/
abbrev Gof (c : Dev nD) : S10000x128.Idx → EReal :=
  Cert.GnnSpec.G (m ((c : Thread nD τ).loc main_arg0)) (m ((c : Thread nD τ).loc main_arg1)) (m ((c : Thread nD τ).loc main_arg2))

/-- What a point that writes back writes is its block of the layer's function. -/
theorem flushed3_eq (c : Dev nD) (t : Fin cfg0.N) (hf : (cfg0.win 3).flush t = true) :
    (dats m 0 c).flushed 3 t = ((cfg0.win 3).blk t).view.read (Elt Ideal) (Gof m c) := by
  have h4 : t.val % 5 = 4 := (flush0_3 t).mp hf
  obtain ⟨_, _, e0, e1, _, _, _, _⟩ := idx_facts t
  funext j
  show (dats m 0 c).after 3 t ((cfg0.win 3).xinj (grid0.coords t) j) = Gof m c (((cfg0.win 3).blk t).view.emb j)
  rw [after3]
  have hj0 : (j 0).val < 400 := (j 0).isLt
  have hj1 : (j 1).val < 128 := (j 1).isLt
  have ex : (cfg0.win 3).xinj (grid0.coords t) j = ix2 (⟨(j 0).val, hj0⟩ : Fin 400) (⟨(j 1).val, hj1⟩ : Fin 128) := by
    funext a; apply Fin.ext
    match a with
    | ⟨0, _⟩ => rfl
    | ⟨1, _⟩ => rfl
  have ee : ((cfg0.win 3).blk t).view.emb j = ix2 (rowOf t.val t.isLt ⟨(j 0).val, hj0⟩) (⟨(j 1).val, hj1⟩ : Fin 128) := by
    funext a; apply Fin.ext
    match a with
    | ⟨0, _⟩ => show win0_3.index t (0 : Fin 2) * 400 + 1 * (j 0).val = 400 * (t.val / 5) + (j 0).val; omega
    | ⟨1, _⟩ => show win0_3.index t (1 : Fin 2) * 128 + 1 * (j 1).val = (j 1).val; omega
  rw [ex, ee, acc_final m c t h4]
  rfl

/-- An index of the result array is in point `t`'s block iff each coordinate is in the block's range. -/
theorem mem_blk3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Row `r` is written back by the last K-block of row block `r / 400`. -/
theorem cover3 (i : S10000x128.Idx) : ∃ t : Fin cfg0.N, (cfg0.win 3).flush t = true ∧ i ∈ ((cfg0.win 3).blk t).view.set := by
  have hN : cfg0.N = 125 := N_0
  have hi0 : (i 0).val < 10000 := (i 0).isLt
  have hi1 : (i 1).val < 128 := (i 1).isLt
  have ht : 5 * ((i 0).val / 400) + 4 < cfg0.N := by omega
  obtain ⟨_, _, e0, e1, _, _, _, _⟩ := idx_facts ⟨5 * ((i 0).val / 400) + 4, ht⟩
  have e0' : win0_3.index ⟨5 * ((i 0).val / 400) + 4, ht⟩ (0 : Fin 2) = (5 * ((i 0).val / 400) + 4) / 5 := e0
  refine ⟨⟨5 * ((i 0).val / 400) + 4, ht⟩, (flush0_3 _).mpr (by show (5 * ((i 0).val / 400) + 4) % 5 = 4; omega), ?_⟩
  rw [mem_blk3]
  intro a
  match a with
  | ⟨0, _⟩ =>
    show win0_3.index ⟨5 * ((i 0).val / 400) + 4, ht⟩ (0 : Fin 2) * 400 ≤ (i 0).val ∧ (i 0).val < win0_3.index ⟨5 * ((i 0).val / 400) + 4, ht⟩ (0 : Fin 2) * 400 + 400
    rw [e0']; omega
  | ⟨1, _⟩ =>
    show win0_3.index ⟨5 * ((i 0).val / 400) + 4, ht⟩ (1 : Fin 2) * 128 ≤ (i 1).val ∧ (i 1).val < win0_3.index ⟨5 * ((i 0).val / 400) + 4, ht⟩ (1 : Fin 2) * 128 + 128
    rw [e1]; omega

/-- The result array after the run. -/
theorem final3 (c : Dev nD) : (dats m 0 c).arrAt 3 cfg0.N = Gof m c :=
  (dats m 0 c).arrAt_eq_of_cover 3 (Gof m c) (fun t hf => flushed3_eq m c t hf) cover3

/-- The idealized kernel's run: the result array ends at the layer's function of the launched arrays, the three
    arguments as they were. -/
theorem run : θ_run defs (onTc (τ := τ) (main (F := Ideal))) ⟨m, fun _ => 0, ρ⟩ fun r => ∀ c : Dev nD,
      r.2.mem ((c.tc : Thread nD τ).loc main_v0) = Gof m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefSide.lean ====
import proofs.«104776_g704374636671_cont_9to1_m_152_16_alg».proof.Proof.Gen.ReferenceIdeal.Read
import proofs.«104776_g704374636671_cont_9to1_m_152_16_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.RowsByCols

/-- The reference's result term over the extended reals is the layer's function: its two `dot_general`s are the two
    rows-by-columns products, its `maximum` with a broadcast zero word the clip below at zero. -/
theorem ref_eq (x0 : FVec Ideal S10000x128 .f32) (x1 : FVec Ideal S10000x10000 .f32) (x2 : FVec Ideal S128x128 .f32) :
    val_main_v2 (F := Ideal) x0 x1 x2 = Cert.GnnSpec.G x0 x1 x2 := by
  funext i
  rw [val_main_v2_apply, val_main_call0_v0_apply, val_main_call0_cst_apply]
  unfold val_main_v1 val_main_v0 Cert.GnnSpec.G
  rw [host_eq dot_S10000x128_S128x128_S10000x128_1_0_0_1_n_n rfl rfl rfl rfl rfl rfl none x0 x2,
    host_eq dot_S10000x10000_S10000x128_S10000x128_1_0_0_1_n_n rfl rfl rfl rfl rfl rfl none x1 _]
  show max _ (Ideal.ofBits .f32 0x00000000#32) = max _ 0
  rw [Ideal.ofBits_zero_f32]

end Cert.ReferenceIdeal.RefValue

end
-- ==== Proof.lean ====
/-
  A graph-network layer, `max (adj · (features · W), 0)` over f32[10000, 128], f32[10000, 10000] and f32[128, 128].

  The kernel runs a 25 × 5 grid (row block `i` of 400 rows, K-block `k` of 2048 columns of `adj`). At the first point it
  stores the product `features · W` to a scratch it keeps for the whole grid; at K-block 0 it zeroes the output block; at
  K-blocks 0 to 3 it adds the 400 × 2048 tile of `adj` times the matching 2048 rows of the scratch; at K-block 4, whose
  tile overhangs the array, it adds the 1808 valid columns times the scratch's last 1808 rows and clips below at zero; the
  block is written back then. The reference is two `dot_general`s and a `maximum` with a broadcast zero.

  Over the extended reals the two agree entry by entry: the scratch and the reference's inner `dot_general` are one
  rows-by-columns product, and the kernel's five partial sums, added in order from zero, are the reference's one sum over
  10000 terms cut at 2048, 4096, 6144 and 8192 — only associativity of the sum is used, so the inputs' finiteness is not.
  The columns past the array's end in the last tile are never read.

  The frames of the two kernel programs: the body is run in each of the four combinations of its conditionals the grid
  meets, on any whole staging memrefs (KRun*, BRun*); the proof data names what every buffer holds after every point,
  the scratch included (KData, BData); the body obligation joins them (KBody, BBody). The value of the idealized kernel:
  the payloads as formulas (KValA), the tiles and scratch rows at coordinates (KValB), the accumulation by induction on
  the point (KValC), and the blocks assembled into the array (KValD). The reference's frame and value are its generated
  run; that its term is the layer's function is RefSide.
-/
import proofs.«104776_g704374636671_cont_9to1_m_152_16_alg».proof.Defs
import proofs.«104776_g704374636671_cont_9to1_m_152_16_alg».proof.Proof.Gen.Kernel
import proofs.«104776_g704374636671_cont_9to1_m_152_16_alg».proof.Proof.Gen.KernelIdeal
import proofs.«104776_g704374636671_cont_9to1_m_152_16_alg».proof.Proof.Gen.ReferenceIdeal
import proofs.«104776_g704374636671_cont_9to1_m_152_16_alg».proof.Proof.Gen.ReferenceIdeal.Run
import proofs.«104776_g704374636671_cont_9to1_m_152_16_alg».proof.Proof.Gen.ReferenceIdeal.Read
import proofs.«104776_g704374636671_cont_9to1_m_152_16_alg».proof.Proof.Gen.Pre_finite_inputs
import proofs.«104776_g704374636671_cont_9to1_m_152_16_alg».proof.Proof.BBody
import proofs.«104776_g704374636671_cont_9to1_m_152_16_alg».proof.Proof.KBody
import proofs.«104776_g704374636671_cont_9to1_m_152_16_alg».proof.Proof.KValD
import proofs.«104776_g704374636671_cont_9to1_m_152_16_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both runs end with the result array at the layer's function of the (agreeing) argument arrays. -/
theorem algebraic : Cert.algebraic_KernelIdeal_ReferenceIdeal := by
  intro m ρ m' ρ' _ hagree
  refine ⟨fun c => Cert.KernelIdeal.Val.Gof m c, Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
